-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x1024 .f32) (main_arg6 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4096x1024 .f32) (main_arg4 : FVec F S4096 .f32) (main_arg5 : FVec F S4096x1024 .f32) (main_arg6 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S2048x4096 : Shape := ⟨2, ![2048, 4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S1024x4096, .f32⟩
  | .hbm, ⟨9, _⟩ => ⟨S2048x4096, .f32⟩
  | .hbm, ⟨10, _⟩ => ⟨S2048x4096, .bf16⟩
  | .hbm, ⟨11, _⟩ => ⟨S4096, .f32⟩
  | .hbm, ⟨12, _⟩ => ⟨S1x4096, .f32⟩
  | .hbm, ⟨13, _⟩ => ⟨S8192x1024, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4096x1024_S1024x4096_1_0 : S4096x1024.Transposes [1, 0] S1024x4096
  concatenates_S1024x4096_S1024x4096_S2048x4096_d0 : Shape.Concatenates [S1024x4096, S1024x4096] S2048x4096 0
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S1024x4096, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelGate.lean ====
/-
  The kernel's gate pre-activations inside one block of 256 batch rows.

  At a grid point the body joins its 256 × 1024 block of the input with its block of the hidden state side by side into a 256 × 2048
  array, multiplies that by the whole 2048 × 4096 weight array into a zero accumulator, and adds the one-row bias array to every
  row. Changes of float format are the identity on extended reals, so at row p and gate column q the result is

      ∑ₖ joined[p, k] · W[k, q]  +  B[0, q]          (k over the 2048 joined positions),

  and the joined array reads the input block at positions 0 … 1023 and the hidden block at positions 1024 … 2047.
-/
import proofs.«121921_j8753143349928_2_alg».proof.Proof.Gen.KernelIdeal.Skeleton
import proofs.«121921_j8753143349928_2_alg».proof.Proof.LibDotCols
import Idealize.ShloMosaic.Lib.Pipeline.Value
import Idealize.ShloMosaic.Lib.ValueLayout
import Idealize.ShloMosaic.Lib.ValueIdx

noncomputable section

open scoped BigOperators

namespace Cert.Lstm.Block

open Cert.KernelIdeal Cert.KernelIdeal.Gen Idealize.ShloMosaic Idealize.ShloMosaic.ValueIdx

variable (X HX : Vec Ideal S256x1024 .f32) (W : Vec Ideal S2048x4096 .bf16) (B : Vec Ideal S1x4096 .f32)

/-- The input block and the hidden block side by side: the left operand of the body's one product. -/
def joined : FVec Ideal S256x2048 .bf16 :=
  concatenate S256x2048 1 [⟨S256x1024, truncf (F := Ideal) .bf16 X bitsLt_bf16_f32⟩, ⟨S256x1024, truncf (F := Ideal) .bf16 HX bitsLt_bf16_f32⟩]
    concatenates_S256x1024_S256x1024_S256x2048_d1

/-- Positions 0 … 1023 of a joined row are the input block's row. -/
theorem joined_lo (p : Fin 256) (k : Fin 1024) :
    joined X HX (ix2 p (⟨k.val, by have := k.isLt; omega⟩ : Fin 2048)) = X (ix2 p k) := by
  unfold joined
  refine (concatenate_pair_apply_left (t := S256x2048) (s₁ := S256x1024) (s₂ := S256x1024) (1 : Fin 2) _ _ _ _ rfl (ix2 p k) (fun b => ?_)).trans rfl
  match b with
  | ⟨0, _⟩ => rfl
  | ⟨1, _⟩ => rfl

/-- Positions 1024 … 2047 of a joined row are the hidden block's row. -/
theorem joined_hi (p : Fin 256) (k : Fin 1024) :
    joined X HX (ix2 p (⟨1024 + k.val, by have := k.isLt; omega⟩ : Fin 2048)) = HX (ix2 p k) := by
  unfold joined
  refine (concatenate_pair_apply_right (t := S256x2048) (s₁ := S256x1024) (s₂ := S256x1024) (1 : Fin 2) _ _ _ _ rfl rfl (ix2 p k) (fun b hb => ?_) ?_).trans rfl
  · match b with
    | ⟨0, _⟩ => rfl
    | ⟨1, _⟩ => exact absurd rfl hb
  · show k.val + 1024 = 1024 + k.val
    omega

/-- THE GATES OF ONE BLOCK at row `p`, gate column `q`: the joined row against column `q` of the weights, plus the bias row at `q`. -/
theorem gates_block (p : Fin 256) (q : Fin 4096) :
    k0_pay1 X HX W B (ix2 p q) = (∑ k : Fin 2048, joined X HX (ix2 p k) * W (ix2 k q)) + B (ix2 (0 : Fin 1) q) := by
  have hw : shapeCast S2048x4096 W shapeCasts_S2048x4096_S2048x4096 = W := shapeCast_self W _
  have hb : shapeCast S1x4096 B shapeCasts_S1x4096_S1x4096 = B := shapeCast_self B _
  have hm : (matmul (φ₁ := .bf16) (φ₂ := .bf16) dot_S256x2048_S2048x4096_S256x4096_1_0_0_1_n_n none (joined X HX) W (constant (F := Ideal) S256x4096 .f32 0x00000000#32)) (ix2 p q)
      = ∑ k : Fin 2048, joined X HX (ix2 p k) * W (ix2 k q) :=
    Cert.Lib.DotCols.matmul_cols_apply (φ₁ := .bf16) (φ₂ := .bf16) dot_S256x2048_S2048x4096_S256x4096_1_0_0_1_n_n rfl none (joined X HX) W p q
  have hr : (broadcastTo S256x4096 B broadcasts_S1x4096_S256x4096) (ix2 p q) = B (ix2 (0 : Fin 1) q) :=
    broadcastTo_1b_ab_apply B _ p q
  show (matmul (φ₁ := .bf16) (φ₂ := .bf16) dot_S256x2048_S2048x4096_S256x4096_1_0_0_1_n_n none (joined X HX) (shapeCast S2048x4096 W shapeCasts_S2048x4096_S2048x4096)
        (constant (F := Ideal) S256x4096 .f32 0x00000000#32)) (ix2 p q)
      + (broadcastTo S256x4096 (shapeCast S1x4096 B shapeCasts_S1x4096_S1x4096) broadcasts_S1x4096_S256x4096) (ix2 p q) = _
  rw [hw, hb, hm, hr]

end Cert.Lstm.Block

end
-- ==== Proof.CellSpec.lean ====
/-
  One step of an LSTM cell, entry by entry, over the extended reals.

  For a batch of 8192 rows, an input of width 1024 and a hidden state of width 1024 the four gates' pre-activations form an
  8192 × 4096 array: column q of row p is

      ∑ₖ x[p,k] · W_x[q,k]  +  b_x[q]  +  ∑ₖ h[p,k] · W_h[q,k]  +  b_h[q]

  (both weight matrices are stored with the gate column FIRST, so the products contract the last axis of both operands). Columns
  0 … 1023 feed the input gate, 1024 … 2047 the forget gate, 2048 … 3071 the candidate, 3072 … 4095 the output gate. With σ the logistic
  function the new cell state and the new hidden state are

      c'[p,j] = c[p,j] · σ(f) + σ(i) · tanh(g)          h'[p,j] = σ(o) · tanh(c'[p,j]).

  This file states these two arrays as functions of the seven argument arrays, and proves the one law of sums the two programs differ
  by: a single contraction over the 2048 positions of the input row followed by the hidden row, with the two biases added to each other
  first, is the sum above. The law is associativity and commutativity of addition only, so it holds of every extended real, infinite
  ones included.
-/
import Idealize.ShloMosaic.PureOps.Ideal
import Idealize.ShloMosaic.Lib.ValueIdx

noncomputable section

open scoped BigOperators

namespace Cert.Lstm

open Idealize.ShloMosaic Idealize.ShloMosaic.ValueIdx

/-- Batch rows by feature columns: the shape of the input, of both states and of both results. -/
abbrev Rows : Shape := ⟨2, ![8192, 1024]⟩
/-- Gate columns by feature columns: the shape of each weight matrix. -/
abbrev Wts : Shape := ⟨2, ![4096, 1024]⟩
/-- One entry per gate column: the shape of each bias. -/
abbrev Bias : Shape := ⟨1, ![4096]⟩

/-- Column `o + j` of the gates' array: feature `j` of the gate whose columns start at `o`. -/
def gateCol (o : Nat) (ho : o + 1024 ≤ 4096) (j : Fin 1024) : Fin 4096 := ⟨o + j.val, by have := j.isLt; omega⟩

section
variable (x hx cx : Rows.Idx → EReal) (wx : Wts.Idx → EReal) (bx : Bias.Idx → EReal) (wh : Wts.Idx → EReal) (bh : Bias.Idx → EReal)

/-- The pre-activation of gate column `q` for batch row `p`: the input's product, the input's bias, the hidden state's product,
    the hidden state's bias, added in this order. -/
def pre (p : Fin 8192) (q : Fin 4096) : EReal :=
  (∑ k : Fin 1024, x (ix2 p k) * wx (ix2 q k)) + bx (ix1 q) + (∑ k : Fin 1024, hx (ix2 p k) * wh (ix2 q k)) + bh (ix1 q)

/-- The new cell state at row `p`, feature `j`: the old state through the forget gate plus the candidate through the input gate. -/
def cellAt (p : Fin 8192) (j : Fin 1024) : EReal :=
  cx (ix2 p j) * Ideal.logistic (pre x hx wx bx wh bh p (gateCol 1024 (by decide) j))
    + Ideal.logistic (pre x hx wx bx wh bh p (gateCol 0 (by decide) j)) * Ideal.tanh (pre x hx wx bx wh bh p (gateCol 2048 (by decide) j))

/-- The new hidden state at row `p`, feature `j`: the squashed new cell state through the output gate. -/
def hiddenAt (p : Fin 8192) (j : Fin 1024) : EReal :=
  Ideal.logistic (pre x hx wx bx wh bh p (gateCol 3072 (by decide) j)) * Ideal.tanh (cellAt x hx cx wx bx wh bh p j)

/-- The new cell state as an array. -/
def newCell : Rows.Idx → EReal := fun i => cellAt x hx cx wx bx wh bh (i 0) (i 1)

/-- The new hidden state as an array. -/
def newHidden : Rows.Idx → EReal := fun i => hiddenAt x hx cx wx bx wh bh (i 0) (i 1)

theorem newCell_apply (p : Fin 8192) (j : Fin 1024) : newCell x hx cx wx bx wh bh (ix2 p j) = cellAt x hx cx wx bx wh bh p j := rfl

theorem newHidden_apply (p : Fin 8192) (j : Fin 1024) : newHidden x hx cx wx bx wh bh (ix2 p j) = hiddenAt x hx cx wx bx wh bh p j := rfl

end

/-- The single-precision word of 1.0 denotes the number one. -/
theorem one_f32 : Ideal.ofBits .f32 0x3F800000#32 = 1 := by
  simp [Ideal.ofBits, Ideal.ieee, -EReal.coe_mul]
  norm_num

/-- The reference's spelling of the logistic function, `1 / (1 + e^(-z))` with both ones written as the word of 1.0, is the logistic function. -/
theorem logistic_spelled (z : EReal) :
    Ideal.div (Ideal.ofBits .f32 0x3F800000#32) (Ideal.ofBits .f32 0x3F800000#32 + Ideal.exp (-z)) = Ideal.logistic z := by
  rw [one_f32]; rfl

/-- ONE CONTRACTION OVER THE JOINED ROW IS THE TWO CONTRACTIONS ADDED. A sum over 2048 positions whose first 1024 terms are `a` and whose
    last 1024 terms are `b`, plus the two biases added to each other, is `∑ a + u + ∑ b + v`: splitting the range and regrouping four
    summands, nothing else, so no summand need be finite. -/
theorem joined_sum (f : Fin 2048 → EReal) (a b : Fin 1024 → EReal) (u v : EReal)
    (hl : ∀ k : Fin 1024, f ⟨k.val, by have := k.isLt; omega⟩ = a k)
    (hr : ∀ k : Fin 1024, f ⟨1024 + k.val, by have := k.isLt; omega⟩ = b k) :
    (∑ k : Fin 2048, f k) + (u + v) = (∑ k : Fin 1024, a k) + u + (∑ k : Fin 1024, b k) + v := by
  have e : (∑ k : Fin 2048, f k) = (∑ k : Fin 1024, a k) + ∑ k : Fin 1024, b k := by
    rw [show (∑ k : Fin 2048, f k) = ∑ k : Fin (1024 + 1024), f k from rfl, Fin.sum_univ_add]
    exact congrArg₂ (· + ·) (Finset.sum_congr rfl fun k _ => hl k) (Finset.sum_congr rfl fun k _ => hr k)
  rw [e, add_add_add_comm, ← add_assoc]

end Cert.Lstm

end
-- ==== Proof.CellPoint.lean ====
/-
  One grid point's block of the two results is the matching block of the cell of CellSpec.

  Everything here is stated for arbitrary blocks X, HX, CX (256 rows of the input and of the two states), W (the weight array) and B
  (the bias row), and arbitrary argument arrays x, hx, cx, W_x, b_x, W_h, b_h, related only by the hypotheses that say where each block entry
  comes from: block row p is array row r, the upper and lower halves of W are the two transposed weight matrices, the bias row is the sum of
  the two biases. Under these the body's gate pre-activation at (p, q) is the specification's at (r, q) — the 2048-term contraction splits
  into the two 1024-term ones and the four summands regroup (CellSpec's law of sums) — and the body's two stored values, which read that
  pre-activation at the four gate columns j, 1024 + j, 2048 + j and 3072 + j, are the specification's new cell and hidden states at (r, j).
-/
import proofs.«121921_j8753143349928_2_alg».proof.Proof.Gen.KernelIdeal.Value
import proofs.«121921_j8753143349928_2_alg».proof.Proof.KernelGate
import proofs.«121921_j8753143349928_2_alg».proof.Proof.CellSpec

noncomputable section

open scoped BigOperators

namespace Cert.Lstm.Block

open Cert.KernelIdeal Cert.KernelIdeal.Gen Cert.KernelIdeal.Value Idealize.ShloMosaic Idealize.ShloMosaic.ValueIdx Cert.Lstm

/-! ## Where the stored values read the gates' block, in coordinates -/

theorem hid_o (p : Fin 256) (j : Fin 1024) : ix5_0 (ix2 p j) = ix2 p (gateCol 3072 (by decide) j) :=
  funext fun a => Fin.ext (by match a with | ⟨0, _⟩ => rfl | ⟨1, _⟩ => exact Nat.add_comm _ _)
theorem hid_c (p : Fin 256) (j : Fin 1024) : ix5_1 (ix2 p j) = ix2 p j :=
  funext fun a => Fin.ext (by match a with | ⟨0, _⟩ => rfl | ⟨1, _⟩ => rfl)
theorem hid_f (p : Fin 256) (j : Fin 1024) : ix5_2 (ix2 p j) = ix2 p (gateCol 1024 (by decide) j) :=
  funext fun a => Fin.ext (by match a with | ⟨0, _⟩ => rfl | ⟨1, _⟩ => exact Nat.add_comm _ _)
theorem hid_i (p : Fin 256) (j : Fin 1024) : ix5_3 (ix2 p j) = ix2 p (gateCol 0 (by decide) j) :=
  funext fun a => Fin.ext (by match a with | ⟨0, _⟩ => rfl | ⟨1, _⟩ => exact (Nat.zero_add _).symm)
theorem hid_g (p : Fin 256) (j : Fin 1024) : ix5_4 (ix2 p j) = ix2 p (gateCol 2048 (by decide) j) :=
  funext fun a => Fin.ext (by match a with | ⟨0, _⟩ => rfl | ⟨1, _⟩ => exact Nat.add_comm _ _)

theorem cel_c (p : Fin 256) (j : Fin 1024) : ix6_0 (ix2 p j) = ix2 p j :=
  funext fun a => Fin.ext (by match a with | ⟨0, _⟩ => rfl | ⟨1, _⟩ => rfl)
theorem cel_f (p : Fin 256) (j : Fin 1024) : ix6_1 (ix2 p j) = ix2 p (gateCol 1024 (by decide) j) :=
  funext fun a => Fin.ext (by match a with | ⟨0, _⟩ => rfl | ⟨1, _⟩ => exact Nat.add_comm _ _)
theorem cel_i (p : Fin 256) (j : Fin 1024) : ix6_2 (ix2 p j) = ix2 p (gateCol 0 (by decide) j) :=
  funext fun a => Fin.ext (by match a with | ⟨0, _⟩ => rfl | ⟨1, _⟩ => exact (Nat.zero_add _).symm)
theorem cel_g (p : Fin 256) (j : Fin 1024) : ix6_3 (ix2 p j) = ix2 p (gateCol 2048 (by decide) j) :=
  funext fun a => Fin.ext (by match a with | ⟨0, _⟩ => rfl | ⟨1, _⟩ => exact Nat.add_comm _ _)

/-- The offsets of a rectangle that starts at the block's corner. -/
theorem zero_offsets : (![0, 0] : Fin 2 → Nat) = fun _ => 0 := funext fun a => by fin_cases a <;> rfl

section
variable (X HX CX : Vec Ideal S256x1024 .f32) (W : Vec Ideal S2048x4096 .bf16) (B : Vec Ideal S1x4096 .f32)
  (x hx cx : Rows.Idx → EReal) (wx : Wts.Idx → EReal) (bx : Bias.Idx → EReal) (wh : Wts.Idx → EReal) (bh : Bias.Idx → EReal)
  (p : Fin 256) (r : Fin 8192)
  (hX : ∀ k : Fin 1024, X (ix2 p k) = x (ix2 r k))
  (hHX : ∀ k : Fin 1024, HX (ix2 p k) = hx (ix2 r k))
  (hWlo : ∀ (k : Fin 1024) (q : Fin 4096), W (ix2 (⟨k.val, by have := k.isLt; omega⟩ : Fin 2048) q) = wx (ix2 q k))
  (hWhi : ∀ (k : Fin 1024) (q : Fin 4096), W (ix2 (⟨1024 + k.val, by have := k.isLt; omega⟩ : Fin 2048) q) = wh (ix2 q k))
  (hB : ∀ q : Fin 4096, B (ix2 (0 : Fin 1) q) = bx (ix1 q) + bh (ix1 q))

include hX hHX hWlo hWhi hB

/-- THE GATES AGREE: the body's pre-activation at block row `p`, gate column `q` is the specification's at array row `r`. -/
theorem gates_point (q : Fin 4096) : k0_pay1 X HX W B (ix2 p q) = pre x hx wx bx wh bh r q := by
  rw [gates_block, hB q]
  unfold pre
  refine joined_sum (fun k => joined X HX (ix2 p k) * W (ix2 k q)) (fun k => x (ix2 r k) * wx (ix2 q k))
    (fun k => hx (ix2 r k) * wh (ix2 q k)) (bx (ix1 q)) (bh (ix1 q)) (fun k => ?_) (fun k => ?_)
  · show joined X HX (ix2 p (⟨k.val, _⟩ : Fin 2048)) * W (ix2 (⟨k.val, _⟩ : Fin 2048) q) = _
    rw [joined_lo, hX, hWlo]
  · show joined X HX (ix2 p (⟨1024 + k.val, _⟩ : Fin 2048)) * W (ix2 (⟨1024 + k.val, _⟩ : Fin 2048) q) = _
    rw [joined_hi, hHX, hWhi]

/-- The new cell state: what the body stores to its second result at block entry (p, j) is the specification's at (r, j). -/
theorem cell_point (j : Fin 1024) (hCX : CX (ix2 p j) = cx (ix2 r j)) :
    E6 CX X HX W B (ix2 p j) = cellAt x hx cx wx bx wh bh r j := by
  have hg := gates_point X HX W B x hx wx bx wh bh p r hX hHX hWlo hWhi hB
  show FloatOps.addf (FloatOps.mulf (CX (ix6_0 (ix2 p j))) (FloatOps.logistic (k0_pay1 X HX W B (ix6_1 (ix2 p j)))))
      (FloatOps.mulf (FloatOps.logistic (k0_pay1 X HX W B (ix6_2 (ix2 p j)))) (FloatOps.tanh (k0_pay1 X HX W B (ix6_3 (ix2 p j))))) = _
  rw [cel_c, cel_f, cel_i, cel_g, hg, hg, hg, hCX]
  rfl

/-- The new hidden state: what the body stores to its first result at block entry (p, j) is the specification's at (r, j). -/
theorem hidden_point (j : Fin 1024) (hCX : CX (ix2 p j) = cx (ix2 r j)) :
    E5 X HX W B CX (ix2 p j) = hiddenAt x hx cx wx bx wh bh r j := by
  have hg := gates_point X HX W B x hx wx bx wh bh p r hX hHX hWlo hWhi hB
  show FloatOps.mulf (FloatOps.logistic (k0_pay1 X HX W B (ix5_0 (ix2 p j))))
      (FloatOps.tanh (FloatOps.addf (FloatOps.mulf (CX (ix5_1 (ix2 p j))) (FloatOps.logistic (k0_pay1 X HX W B (ix5_2 (ix2 p j)))))
        (FloatOps.mulf (FloatOps.logistic (k0_pay1 X HX W B (ix5_3 (ix2 p j)))) (FloatOps.tanh (k0_pay1 X HX W B (ix5_4 (ix2 p j))))))) = _
  rw [hid_o, hid_c, hid_f, hid_i, hid_g, hg, hg, hg, hg, hCX]
  rfl

/-! ## What the body leaves in the two result blocks

Each result block is written by one store through the whole block, of a value computed from the five loaded blocks; each load is of a
whole block too. So the block after the body is the stored value, read at the same entry. -/

/-- The first result's block after the body, at entry (p, j), is the specification's new hidden state at (r, j). -/
theorem stored_hidden (j : Fin 1024) (hCX : CX (ix2 p j) = cx (ix2 r j)) :
    out0_5 X HX CX W B (ix2 p j) = hiddenAt x hx cx wx bx wh bh r j := by
  unfold out0_5
  rw [canon5_eq]
  simp only [View.ld_unit_zero (S := S256x1024) zero_offsets, View.ld_unit_zero (S := S2048x4096) zero_offsets,
    View.ld_unit_zero (S := S1x4096) zero_offsets]
  exact hidden_point X HX CX W B x hx cx wx bx wh bh p r hX hHX hWlo hWhi hB j hCX

/-- The second result's block after the body, at entry (p, j), is the specification's new cell state at (r, j). -/
theorem stored_cell (j : Fin 1024) (hCX : CX (ix2 p j) = cx (ix2 r j)) :
    out0_6 X HX CX W B (ix2 p j) = cellAt x hx cx wx bx wh bh r j := by
  unfold out0_6
  rw [canon6_eq]
  simp only [View.ld_unit_zero (S := S256x1024) zero_offsets, View.ld_unit_zero (S := S2048x4096) zero_offsets,
    View.ld_unit_zero (S := S1x4096) zero_offsets]
  exact cell_point X HX CX W B x hx cx wx bx wh bh p r hX hHX hWlo hWhi hB j hCX

end

end Cert.Lstm.Block

end
-- ==== Proof.RegionEntry.lean ====
/-
  The two arrays the host prepares before the grid runs, entry by entry.

  The weight array the kernel multiplies by is the two weight matrices transposed and stacked: rows 0 … 1023 are W_xᵀ and rows 1024 … 2047
  are W_hᵀ, so its entry (k, q) is W_x[q, k] in the upper half and W_h[q, k − 1024] in the lower half (the change of float format in between
  is the identity on extended reals). The bias row is the two biases added entry by entry and laid out as one row, so its entry (0, q) is
  b_x[q] + b_h[q].
-/
import proofs.«121921_j8753143349928_2_alg».proof.Proof.Gen.KernelIdeal.Frame
import Idealize.ShloMosaic.Lib.StableHlo.Run
import Idealize.ShloMosaic.Lib.Pipeline.Value
import Idealize.ShloMosaic.Lib.ValueIdx

noncomputable section

namespace Cert.Lstm.Entry

open Cert.KernelIdeal Cert.KernelIdeal.Gen Idealize.ShloMosaic Idealize.ShloMosaic.TcCoe Idealize.ShloMosaic.ValueIdx Idealize.SL.Sem

/-! ## The two arrays as functions of the arguments -/

/-- Both weight matrices transposed, the input's above the hidden state's. -/
def stacked (wx wh : S4096x1024.Idx → EReal) : S2048x4096.Idx → EReal :=
  concatenate S2048x4096 0
    [⟨S1024x4096, transpose S1024x4096 [1, 0] wx transposes_S4096x1024_S1024x4096_1_0⟩,
     ⟨S1024x4096, transpose S1024x4096 [1, 0] wh transposes_S4096x1024_S1024x4096_1_0⟩]
    concatenates_S1024x4096_S1024x4096_S2048x4096_d0

/-- The two biases added, as one row. -/
def biasRow (bx bh : S4096.Idx → EReal) : S1x4096.Idx → EReal :=
  shapeCast S1x4096 (addf (F := Ideal) (φ := .f32) bx bh) shapeCasts_S4096_S1x4096

/-- Upper half of the stacked array: entry (k, q) is the input weights' entry (q, k). -/
theorem stacked_lo (wx wh : S4096x1024.Idx → EReal) (k : Fin 1024) (q : Fin 4096) :
    stacked wx wh (ix2 (⟨k.val, by have := k.isLt; omega⟩ : Fin 2048) q) = wx (ix2 q k) := by
  unfold stacked
  refine (concatenate_pair_apply_left (t := S2048x4096) (s₁ := S1024x4096) (s₂ := S1024x4096) (0 : Fin 2) _ _
    concatenates_S1024x4096_S1024x4096_S2048x4096_d0 _ rfl (ix2 k q) (fun b => ?_)).trans
    (transpose_apply [1, 0] wx transposes_S4096x1024_S1024x4096_1_0 (ix2 k q) (ix2 q k) (fun b => ?_))
  · match b with
    | ⟨0, _⟩ => rfl
    | ⟨1, _⟩ => rfl
  · match b with
    | ⟨0, _⟩ => rfl
    | ⟨1, _⟩ => rfl

/-- Lower half of the stacked array: entry (1024 + k, q) is the hidden weights' entry (q, k). -/
theorem stacked_hi (wx wh : S4096x1024.Idx → EReal) (k : Fin 1024) (q : Fin 4096) :
    stacked wx wh (ix2 (⟨1024 + k.val, by have := k.isLt; omega⟩ : Fin 2048) q) = wh (ix2 q k) := by
  unfold stacked
  refine (concatenate_pair_apply_right (t := S2048x4096) (s₁ := S1024x4096) (s₂ := S1024x4096) (0 : Fin 2) _ _
    concatenates_S1024x4096_S1024x4096_S2048x4096_d0 _ rfl rfl (ix2 k q) (fun b hb => ?_) ?_).trans
    (transpose_apply [1, 0] wh transposes_S4096x1024_S1024x4096_1_0 (ix2 k q) (ix2 q k) (fun b => ?_))
  · match b with
    | ⟨0, _⟩ => exact absurd rfl hb
    | ⟨1, _⟩ => rfl
  · show k.val + 1024 = 1024 + k.val
    omega
  · match b with
    | ⟨0, _⟩ => rfl
    | ⟨1, _⟩ => rfl

/-- The bias row at gate column `q` is the two biases there, added. -/
theorem biasRow_apply (bx bh : S4096.Idx → EReal) (q : Fin 4096) :
    biasRow bx bh (ix2 (0 : Fin 1) q) = bx (ix1 q) + bh (ix1 q) := by
  unfold biasRow
  refine (shapeCast_apply _ shapeCasts_S4096_S1x4096 (ix2 (0 : Fin 1) q) (ix1 q) ?_).trans rfl
  rw [Shape.rowMajor_val_one, Shape.rowMajor_val_two]
  show q.val = 0 * 4096 + q.val
  omega

/-! ## They are what the grid finds -/

variable (m : (ℓ : Loc nD τ sig) → Buf (Elt Ideal) ℓ)

/-- The weight array as the grid finds it. -/
theorem weights_eq (c : Dev nD) :
    (V m c main_v3 : S2048x4096.Idx → EReal) = stacked (m ((c : Thread nD τ).loc main_arg3)) (m ((c : Thread nD τ).loc main_arg5)) := by
  dsimp only [V, hostOps0]
  after_results
  all_goals rfl

/-- The bias row as the grid finds it. -/
theorem bias_eq (c : Dev nD) :
    (V m c main_v5 : S1x4096.Idx → EReal) = biasRow (m ((c : Thread nD τ).loc main_arg4)) (m ((c : Thread nD τ).loc main_arg6)) := by
  dsimp only [V, hostOps0]
  after_results
  all_goals rfl

end Cert.Lstm.Entry

end
-- ==== Proof.KernelCell.lean ====
/-
  The kernel's two result arrays are the cell of CellSpec.

  The grid has 32 points; point t stages rows 256·t … 256·t + 255 of the input and of the two states, the whole weight array and the whole
  bias row, and writes back rows 256·t … 256·t + 255 of each result. So entry (p, j) of a block at point t is entry (256·t + p, j) of its
  array, each point writes the specification's rows of its own block (CellPoint), and since the 32 row blocks tile the 8192 rows — row i
  lies in block i / 256 — each result array ends holding the specification's array.
-/
import proofs.«121921_j8753143349928_2_alg».proof.Proof.Gen.KernelIdeal.Value
import proofs.«121921_j8753143349928_2_alg».proof.Proof.CellPoint
import proofs.«121921_j8753143349928_2_alg».proof.Proof.RegionEntry

noncomputable section

namespace Cert.Lstm.Kernel

open Cert.KernelIdeal Cert.KernelIdeal.Gen Cert.KernelIdeal.Value Idealize.ShloMosaic Idealize.ShloMosaic.TcCoe
  Idealize.ShloMosaic.ValueIdx Idealize.SL.Sem Cert.Lstm Cert.Lstm.Block Cert.Lstm.Entry
open Idealize.ShloMosaic.Pipeline (Dat)

variable (m : (ℓ : Loc nD τ sig) → Buf (Elt Ideal) ℓ) (ρ : Dev nD → PrngReg)

/-- The specification's new hidden state of the seven argument arrays as launched. -/
abbrev hiddenOf (c : Dev nD) : S8192x1024.Idx → EReal :=
  newHidden (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The specification's new cell state of the seven argument arrays as launched. -/
abbrev cellOf (c : Dev nD) : S8192x1024.Idx → EReal :=
  newCell (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## Which block each window holds at a point -/

/-- The block indices over the 32 points: the five row-blocked windows are at block (t, 0), the weight array and the bias row at (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := t.isLt.trans_eq (show cfg0.N = 32 from N_0)

/-- The input's block at point t: its row p is the input's row 256·t + p. -/
theorem input_block (c : Dev nD) (t : Fin cfg0.N) (p : Fin 256) (r : Fin 8192) (hr : r.val = t.val * 256 + p.val) (k : Fin 1024) :
    iblk m c 0 t (ix2 p k) = (m ((c : Thread nD τ).loc main_arg0)) (ix2 r k) := by
  obtain ⟨e0, e1, -⟩ := block_index t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 1024 + 1 * k.val = k.val; rw [e1]; omega

/-- The hidden state's block at point t: its row p is the hidden state's row 256·t + p. -/
theorem hidden_block (c : Dev nD) (t : Fin cfg0.N) (p : Fin 256) (r : Fin 8192) (hr : r.val = t.val * 256 + p.val) (k : Fin 1024) :
    iblk m c 1 t (ix2 p k) = (m ((c : Thread nD τ).loc main_arg1)) (ix2 r k) := by
  obtain ⟨-, -, e0, e1, -⟩ := block_index t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = r.val; rw [e0, hr]; omega
  | ⟨1, _⟩ => show win0_1.index t (1 : Fin 2) * 1024 + 1 * k.val = k.val; rw [e1]; omega

/-- The cell state's block at point t: its row p is the cell state's row 256·t + p. -/
theorem cell_block (c : Dev nD) (t : Fin cfg0.N) (p : Fin 256) (r : Fin 8192) (hr : r.val = t.val * 256 + p.val) (k : Fin 1024) :
    iblk m c 2 t (ix2 p k) = (m ((c : Thread nD τ).loc main_arg2)) (ix2 r k) := by
  obtain ⟨-, -, -, -, e0, e1, -⟩ := block_index t
  show V m c main_arg2 (((cfg0.win 2).blk t).view.emb (ix2 p k)) = _
  rw [V_main_arg2]
  refine congrArg _ (funext fun a => Fin.ext ?_)
  match a with
  | ⟨0, _⟩ => show win0_2.index t (0 : Fin 2) * 256 + 1 * p.val = r.val; rw [e0, hr]; omega
  | ⟨1, _⟩ => show win0_2.index t (1 : Fin 2) * 1024 + 1 * k.val = k.val; rw [e1]; omega

/-- The weight window's block, at every point, is the whole stacked weight array. -/
theorem weight_block (c : Dev nD) (t : Fin cfg0.N) (y : S2048x4096.Idx) :
    iblk m c 3 t y = stacked (m ((c : Thread nD τ).loc main_arg3)) (m ((c : Thread nD τ).loc main_arg5)) y := by
  obtain ⟨-, -, -, -, -, -, e0, e1, -⟩ := block_index t
  have hy0 : (y 0).val < 2048 := (y 0).isLt
  have hy1 : (y 1).val < 4096 := (y 1).isLt
  show (V m c main_v3 : S2048x4096.Idx → EReal) (((cfg0.win 3).blk t).view.emb y) = _
  rw [weights_eq]
  refine congrArg _ (funext fun a => Fin.ext ?_)
  match a with
  | ⟨0, _⟩ => show win0_3.index t (0 : Fin 2) * 2048 + 1 * (y 0).val = (y 0).val; rw [e0]; omega
  | ⟨1, _⟩ => show win0_3.index t (1 : Fin 2) * 4096 + 1 * (y 1).val = (y 1).val; rw [e1]; omega

/-- The bias window's block, at every point, is the whole bias row. -/
theorem bias_block (c : Dev nD) (t : Fin cfg0.N) (y : S1x4096.Idx) :
    iblk m c 4 t y = biasRow (m ((c : Thread nD τ).loc main_arg4)) (m ((c : Thread nD τ).loc main_arg6)) y := by
  obtain ⟨-, -, -, -, -, -, -, -, e0, e1, -⟩ := block_index t
  have hy0 : (y 0).val < 1 := (y 0).isLt
  have hy1 : (y 1).val < 4096 := (y 1).isLt
  show (V m c main_v5 : S1x4096.Idx → EReal) (((cfg0.win 4).blk t).view.emb y) = _
  rw [bias_eq]
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 4096 + 1 * (y 1).val = (y 1).val; rw [e1]; omega

/-! ## What each point writes back -/

/-- Point t writes back block t of the specification's new hidden state. -/
theorem hidden_flushed (c : Dev nD) (t : Fin cfg0.N) :
    (dats m 0 c).flushed 5 t = ((cfg0.win 5).blk t).view.read (Elt Ideal) (hiddenOf m c) := by
  obtain ⟨-, -, -, -, -, -, -, -, -, -, e0, e1, -⟩ := block_index t
  have ht := point_lt t
  rw [flushed5]
  funext y
  have hy0 : (y 0).val < 256 := (y 0).isLt
  have hy1 : (y 1).val < 1024 := (y 1).isLt
  have hin : (cfg0.win 5).xinj (grid0.coords t) y = ix2 (⟨(y 0).val, hy0⟩ : Fin 256) (⟨(y 1).val, hy1⟩ : Fin 1024) :=
    funext fun a => Fin.ext (by match a with | ⟨0, _⟩ => rfl | ⟨1, _⟩ => rfl)
  have hout : ((cfg0.win 5).blk t).view.emb y
      = ix2 (⟨t.val * 256 + (y 0).val, by omega⟩ : Fin 8192) (⟨(y 1).val, hy1⟩ : Fin 1024) :=
    funext fun a => Fin.ext (by
      match a with
      | ⟨0, _⟩ => show win0_5.index t (0 : Fin 2) * 256 + 1 * (y 0).val = t.val * 256 + (y 0).val; rw [e0]; omega
      | ⟨1, _⟩ => show win0_5.index t (1 : Fin 2) * 1024 + 1 * (y 1).val = (y 1).val; rw [e1]; omega)
  rw [View.read_apply, hout]
  refine (congrArg (out0_5 (iblk m c 0 t) (iblk m c 1 t) (iblk m c 2 t) (iblk m c 3 t) (iblk m c 4 t)) hin).trans ?_
  exact stored_hidden (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(y 0).val, hy0⟩ ⟨t.val * 256 + (y 0).val, by omega⟩
    (input_block m c t _ _ rfl) (hidden_block m c t _ _ rfl)
    (fun k q => (weight_block m c t _).trans (stacked_lo _ _ k q))
    (fun k q => (weight_block m c t _).trans (stacked_hi _ _ k q))
    (fun q => (bias_block m c t _).trans (biasRow_apply _ _ q))
    ⟨(y 1).val, hy1⟩ (cell_block m c t _ _ rfl _)

/-- Point t writes back block t of the specification's new cell state. -/
theorem cell_flushed (c : Dev nD) (t : Fin cfg0.N) :
    (dats m 0 c).flushed 6 t = ((cfg0.win 6).blk t).view.read (Elt Ideal) (cellOf m c) := by
  obtain ⟨-, -, -, -, -, -, -, -, -, -, -, -, e0, e1⟩ := block_index t
  have ht := point_lt t
  rw [flushed6]
  funext y
  have hy0 : (y 0).val < 256 := (y 0).isLt
  have hy1 : (y 1).val < 1024 := (y 1).isLt
  have hin : (cfg0.win 6).xinj (grid0.coords t) y = ix2 (⟨(y 0).val, hy0⟩ : Fin 256) (⟨(y 1).val, hy1⟩ : Fin 1024) :=
    funext fun a => Fin.ext (by match a with | ⟨0, _⟩ => rfl | ⟨1, _⟩ => rfl)
  have hout : ((cfg0.win 6).blk t).view.emb y
      = ix2 (⟨t.val * 256 + (y 0).val, by omega⟩ : Fin 8192) (⟨(y 1).val, hy1⟩ : Fin 1024) :=
    funext fun a => Fin.ext (by
      match a with
      | ⟨0, _⟩ => show win0_6.index t (0 : Fin 2) * 256 + 1 * (y 0).val = t.val * 256 + (y 0).val; rw [e0]; omega
      | ⟨1, _⟩ => show win0_6.index t (1 : Fin 2) * 1024 + 1 * (y 1).val = (y 1).val; rw [e1]; omega)
  rw [View.read_apply, hout]
  refine (congrArg (out0_6 (iblk m c 0 t) (iblk m c 1 t) (iblk m c 2 t) (iblk m c 3 t) (iblk m c 4 t)) hin).trans ?_
  exact stored_cell (iblk m c 0 t) (iblk m c 1 t) (iblk m c 2 t) (iblk m c 3 t) (iblk m c 4 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(y 0).val, hy0⟩ ⟨t.val * 256 + (y 0).val, by omega⟩
    (input_block m c t _ _ rfl) (hidden_block m c t _ _ rfl)
    (fun k q => (weight_block m c t _).trans (stacked_lo _ _ k q))
    (fun k q => (weight_block m c t _).trans (stacked_hi _ _ k q))
    (fun q => (bias_block m c t _).trans (biasRow_apply _ _ q))
    ⟨(y 1).val, hy1⟩ (cell_block m c t _ _ rfl _)

/-! ## The row blocks tile the arrays -/

/-- Row i of the first result lies in the block of point i / 256. -/
theorem hidden_cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  let t : Fin cfg0.N := ⟨(i 0).val / 256, by rw [show cfg0.N = 32 from N_0]; omega⟩
  obtain ⟨-, -, -, -, -, -, -, -, -, -, e0, e1, -⟩ := block_index t
  refine ⟨t, flush0_5 t, ?_⟩
  show i ∈ ((View.whole main_v6_0).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    rw [e0]; show (i 0).val / 256 * 256 ≤ (i 0).val ∧ (i 0).val < (i 0).val / 256 * 256 + 256; omega
  | ⟨1, _⟩ =>
    show win0_5.index t (1 : Fin 2) * 1024 ≤ (i 1).val ∧ (i 1).val < win0_5.index t (1 : Fin 2) * 1024 + 1024
    rw [e1]; omega

/-- Row i of the second result lies in the block of point i / 256. -/
theorem cell_cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  let t : Fin cfg0.N := ⟨(i 0).val / 256, by rw [show cfg0.N = 32 from N_0]; omega⟩
  obtain ⟨-, -, -, -, -, -, -, -, -, -, -, -, e0, e1⟩ := block_index t
  refine ⟨t, flush0_6 t, ?_⟩
  show i ∈ ((View.whole main_v6_1).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [e0]; show (i 0).val / 256 * 256 ≤ (i 0).val ∧ (i 0).val < (i 0).val / 256 * 256 + 256; omega
  | ⟨1, _⟩ =>
    show win0_6.index t (1 : Fin 2) * 1024 ≤ (i 1).val ∧ (i 1).val < win0_6.index t (1 : Fin 2) * 1024 + 1024
    rw [e1]; omega

/-! ## The arrays after the run, and the run -/

/-- The first result array ends holding the specification's new hidden state. -/
theorem hidden_final (c : Dev nD) : (dats m 0 c).arrAt 5 cfg0.N = hiddenOf m c :=
  (dats m 0 c).arrAt_eq_of_cover 5 (hiddenOf m c) (fun t _ => hidden_flushed m c t) hidden_cover

/-- The second result array ends holding the specification's new cell state. -/
theorem cell_final (c : Dev nD) : (dats m 0 c).arrAt 6 cfg0.N = cellOf m c :=
  (dats m 0 c).arrAt_eq_of_cover 6 (cellOf m c) (fun t _ => cell_flushed m c t) cell_cover

/-- THE KERNEL'S RUN: every weakly fair execution ends with the two result arrays at the specification's hidden and cell
    states of the arguments as launched, and the arguments unchanged. -/
theorem run : θ_run defs (onTc (τ := τ) (main (F := Ideal))) ⟨m, fun _ => 0, ρ⟩ fun r => ∀ c : Dev nD,
      r.2.mem ((c : Thread nD τ).loc main_v6_0) = hiddenOf m c
      ∧ r.2.mem ((c : Thread nD τ).loc main_v6_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (run_blocks m ρ)

end Cert.Lstm.Kernel

end
-- ==== Proof.RefCell.lean ====
/-
  The reference computes the cell of CellSpec.

  The host program forms the gates' array as  (x · W_xᵀ + b_x) + h · W_hᵀ + b_h, cuts it into four bands of 1024 columns, passes the bands
  through  1 / (1 + e^(-z))  (input, forget and output gates) and tanh (candidate), and combines them with the old cell state. Read at
  one entry, each transpose turns  Wᵀ[k, q]  back into  W[q, k], each bias broadcast reads the bias at the gate column, and each band
  is the gates' array at the column shifted by the band's offset; so the gates' array at (p, q) is the specification's pre-activation
  summand for summand, and the two results are the specification's arrays.
-/
import proofs.«121921_j8753143349928_2_alg».proof.Proof.Gen.ReferenceIdeal.Read
import proofs.«121921_j8753143349928_2_alg».proof.Proof.CellSpec

noncomputable section

open scoped BigOperators

namespace Cert.Lstm.Ref

open Cert.ReferenceIdeal Cert.ReferenceIdeal.Gen Cert.ReferenceIdeal.Read Idealize.ShloMosaic Idealize.ShloMosaic.ValueIdx Cert.Lstm

/-! ## Where each operation reads its operands, in coordinates -/

theorem lhs_x (p : Fin 8192) (q : Fin 4096) (k : Fin 1024) : lidx_main_v1 (ix2 p q) k = ix2 p k :=
  funext fun a => Fin.ext (by match a with | ⟨0, _⟩ => rfl | ⟨1, _⟩ => rfl)

theorem rhs_wx (p : Fin 8192) (q : Fin 4096) (k : Fin 1024) : idx_main_v0 (ridx_main_v1 (ix2 p q) k) = ix2 q k :=
  funext fun a => Fin.ext (by match a with | ⟨0, _⟩ => rfl | ⟨1, _⟩ => rfl)

theorem lhs_h (p : Fin 8192) (q : Fin 4096) (k : Fin 1024) : lidx_main_v6 (ix2 p q) k = ix2 p k :=
  funext fun a => Fin.ext (by match a with | ⟨0, _⟩ => rfl | ⟨1, _⟩ => rfl)

theorem rhs_wh (p : Fin 8192) (q : Fin 4096) (k : Fin 1024) : idx_main_v5 (ridx_main_v6 (ix2 p q) k) = ix2 q k :=
  funext fun a => Fin.ext (by match a with | ⟨0, _⟩ => rfl | ⟨1, _⟩ => rfl)

theorem at_bx (p : Fin 8192) (q : Fin 4096) : idx_main_v2 (idx_main_v3 (ix2 p q)) = ix1 q :=
  funext fun a => Fin.ext (by match a with | ⟨0, _⟩ => rfl)

theorem at_bh (p : Fin 8192) (q : Fin 4096) : idx_main_v8 (idx_main_v9 (ix2 p q)) = ix1 q :=
  funext fun a => Fin.ext (by match a with | ⟨0, _⟩ => rfl)

theorem band_i (p : Fin 8192) (j : Fin 1024) : idx_main_v11 (ix2 p j) = ix2 p (gateCol 0 (by decide) j) :=
  funext fun a => Fin.ext (by match a with | ⟨0, _⟩ => rfl | ⟨1, _⟩ => exact (Nat.zero_add _).symm)

theorem band_f (p : Fin 8192) (j : Fin 1024) : idx_main_v12 (ix2 p j) = ix2 p (gateCol 1024 (by decide) j) :=
  funext fun a => Fin.ext (by match a with | ⟨0, _⟩ => rfl | ⟨1, _⟩ => rfl)

theorem band_g (p : Fin 8192) (j : Fin 1024) : idx_main_v13 (ix2 p j) = ix2 p (gateCol 2048 (by decide) j) :=
  funext fun a => Fin.ext (by match a with | ⟨0, _⟩ => rfl | ⟨1, _⟩ => rfl)

theorem band_o (p : Fin 8192) (j : Fin 1024) : idx_main_v14 (ix2 p j) = ix2 p (gateCol 3072 (by decide) j) :=
  funext fun a => Fin.ext (by match a with | ⟨0, _⟩ => rfl | ⟨1, _⟩ => rfl)

section
variable (x0 x1 x2 : (⟨S8192x1024, .f32⟩ : BufTy).Contents (Elt Ideal)) (x3 : (⟨S4096x1024, .f32⟩ : BufTy).Contents (Elt Ideal))
  (x4 : (⟨S4096, .f32⟩ : BufTy).Contents (Elt Ideal)) (x5 : (⟨S4096x1024, .f32⟩ : BufTy).Contents (Elt Ideal))
  (x6 : (⟨S4096, .f32⟩ : BufTy).Contents (Elt Ideal))

/-! ## The gates' array -/

/-- The gates' array at row `p`, column `q` is the specification's pre-activation. -/
theorem gates_apply (p : Fin 8192) (q : Fin 4096) :
    val_main_v10 (F := Ideal) x0 x1 x3 x4 x5 x6 (ix2 p q) = pre x0 x1 x3 x4 x5 x6 p q := by
  rw [val_main_v10_apply, val_main_v7_apply, val_main_v4_apply, val_main_v1_apply, val_main_v3_apply, val_main_v2_apply,
    val_main_v6_apply, val_main_v9_apply, val_main_v8_apply]
  simp only [val_main_v0_apply, val_main_v5_apply, lhs_x, rhs_wx, lhs_h, rhs_wh, at_bx, at_bh]
  rfl

/-! ## The four bands through their squashing functions -/

/-- The input gate. -/
theorem gate_i (p : Fin 8192) (j : Fin 1024) :
    val_main_v20 (F := Ideal) x0 x1 x3 x4 x5 x6 (ix2 p j) = Ideal.logistic (pre x0 x1 x3 x4 x5 x6 p (gateCol 0 (by decide) j)) := by
  rw [val_main_v20_apply, val_main_v19_apply, val_main_cst_0_apply, val_main_v18_apply, val_main_v17_apply, val_main_cst_apply,
    val_main_v16_apply, val_main_v15_apply, val_main_v11_apply, band_i, gates_apply]
  exact logistic_spelled _

/-- The forget gate. -/
theorem gate_f (p : Fin 8192) (j : Fin 1024) :
    val_main_v26 (F := Ideal) x0 x1 x3 x4 x5 x6 (ix2 p j) = Ideal.logistic (pre x0 x1 x3 x4 x5 x6 p (gateCol 1024 (by decide) j)) := by
  rw [val_main_v26_apply, val_main_v25_apply, val_main_cst_2_apply, val_main_v24_apply, val_main_v23_apply, val_main_cst_1_apply,
    val_main_v22_apply, val_main_v21_apply, val_main_v12_apply, band_f, gates_apply]
  exact logistic_spelled _

/-- The candidate. -/
theorem gate_g (p : Fin 8192) (j : Fin 1024) :
    val_main_v27 (F := Ideal) x0 x1 x3 x4 x5 x6 (ix2 p j) = Ideal.tanh (pre x0 x1 x3 x4 x5 x6 p (gateCol 2048 (by decide) j)) := by
  rw [val_main_v27_apply, val_main_v13_apply, band_g, gates_apply]
  rfl

/-- The output gate. -/
theorem gate_o (p : Fin 8192) (j : Fin 1024) :
    val_main_v33 (F := Ideal) x0 x1 x3 x4 x5 x6 (ix2 p j) = Ideal.logistic (pre x0 x1 x3 x4 x5 x6 p (gateCol 3072 (by decide) j)) := by
  rw [val_main_v33_apply, val_main_v32_apply, val_main_cst_4_apply, val_main_v31_apply, val_main_v30_apply, val_main_cst_3_apply,
    val_main_v29_apply, val_main_v28_apply, val_main_v14_apply, band_o, gates_apply]
  exact logistic_spelled _

/-! ## The two results -/

/-- The reference's second result is the specification's new cell state. -/
theorem cell_eq : val_main_v36 (F := Ideal) x0 x1 x2 x3 x4 x5 x6 = newCell x0 x1 x2 x3 x4 x5 x6 := by
  funext i
  obtain ⟨p, j, rfl⟩ : ∃ (p : Fin 8192) (j : Fin 1024), i = ix2 p j := ⟨i 0, i 1, eq_ix2 i⟩
  rw [val_main_v36_apply, val_main_v34_apply, val_main_v35_apply, gate_f, gate_i, gate_g]
  rfl

/-- The reference's first result is the specification's new hidden state. -/
theorem hidden_eq : val_main_v38 (F := Ideal) x0 x1 x2 x3 x4 x5 x6 = newHidden x0 x1 x2 x3 x4 x5 x6 := by
  funext i
  obtain ⟨p, j, rfl⟩ : ∃ (p : Fin 8192) (j : Fin 1024), i = ix2 p j := ⟨i 0, i 1, eq_ix2 i⟩
  rw [val_main_v38_apply, val_main_v37_apply, gate_o, cell_eq]
  rfl

end

end Cert.Lstm.Ref

end
-- ==== Proof.lean ====
/-
  A single step of an LSTM cell, computed by a kernel over blocks of 256 batch rows, against the same step written with whole-array
  operations; the two agree entry by entry over the extended reals.

  Both programs take the input x and the states h, c (8192 × 1024 each), two weight matrices (4096 × 1024) and two biases (4096), and return
  the new hidden state and the new cell state. With  g[p, q] = ∑ₖ x[p,k]·W_x[q,k] + b_x[q] + ∑ₖ h[p,k]·W_h[q,k] + b_h[q]  the gates'
  pre-activations and σ the logistic function,

      c'[p, j] = c[p, j]·σ(g[p, 1024 + j]) + σ(g[p, j])·tanh(g[p, 2048 + j]),        h'[p, j] = σ(g[p, 3072 + j])·tanh(c'[p, j])

  (CellSpec). The reference computes g in exactly this order and spells σ(z) as 1 / (1 + e^(-z)), which is the logistic function by
  definition (RefCell). The kernel instead stacks the two transposed weight matrices and adds the two biases once, before its grid runs
  (RegionEntry); at each of its 32 points it joins 256 rows of x and of h side by side, contracts the joined rows against the stacked
  weights in ONE product over 2048 positions, and adds the bias row (KernelGate). That single contraction is the two contractions added, and
  the four summands regroup by associativity and commutativity of addition alone — a law of every extended real, so no input need be finite
  for it (CellSpec's law of sums, used in CellPoint). Each point therefore writes the specification's rows 256·t … 256·t + 255 of both results,
  and the 32 row blocks tile the arrays (KernelCell). Changes of float format are the identity on extended reals, so the kernel's narrowing
  of its product's operands changes nothing here.

  The three programs' runs — termination, no fault, arguments unchanged — are the generated frames; the idealized kernel is the printed
  kernel read over the extended reals with no rewrite, so there is nothing to preserve.
-/
import proofs.«121921_j8753143349928_2_alg».proof.Defs
import proofs.«121921_j8753143349928_2_alg».proof.Proof.Gen.Kernel
import proofs.«121921_j8753143349928_2_alg».proof.Proof.Gen.Kernel.Skeleton
import proofs.«121921_j8753143349928_2_alg».proof.Proof.Gen.Kernel.Launch
import proofs.«121921_j8753143349928_2_alg».proof.Proof.Gen.Kernel.Points
import proofs.«121921_j8753143349928_2_alg».proof.Proof.Gen.Kernel.Frame
import proofs.«121921_j8753143349928_2_alg».proof.Proof.Gen.KernelIdeal
import proofs.«121921_j8753143349928_2_alg».proof.Proof.Gen.KernelIdeal.Skeleton
import proofs.«121921_j8753143349928_2_alg».proof.Proof.Gen.KernelIdeal.Launch
import proofs.«121921_j8753143349928_2_alg».proof.Proof.Gen.KernelIdeal.Points
import proofs.«121921_j8753143349928_2_alg».proof.Proof.Gen.KernelIdeal.Frame
import proofs.«121921_j8753143349928_2_alg».proof.Proof.Gen.ReferenceIdeal
import proofs.«121921_j8753143349928_2_alg».proof.Proof.Gen.Pre_finite_inputs
import proofs.«121921_j8753143349928_2_alg».proof.Proof.Gen.KernelIdeal.Value
import proofs.«121921_j8753143349928_2_alg».proof.Proof.Gen.ReferenceIdeal.Run
import proofs.«121921_j8753143349928_2_alg».proof.Proof.Gen.ReferenceIdeal.Read
import proofs.«121921_j8753143349928_2_alg».proof.Proof.KernelCell
import proofs.«121921_j8753143349928_2_alg».proof.Proof.RefCell
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Over the extended reals, from memories that agree on the seven arguments, both programs end with the specification's new hidden
    state as their first result and its new cell state as their second. -/
theorem algebraic : Cert.algebraic_KernelIdeal_ReferenceIdeal := by
  intro m ρ m' ρ' _ hagree
  refine ⟨fun c => Cert.Lstm.Kernel.hiddenOf m c, fun c => Cert.Lstm.Kernel.cellOf m c, Cert.Lstm.Kernel.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.Read.val_main_v38_eq, Cert.Lstm.Ref.hidden_eq, a0, a1, a2, a3, a4, a5, a6]
  · rw [Cert.ReferenceIdeal.Read.val_main_v36_eq, Cert.Lstm.Ref.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
